-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x1024x1024 : Shape := ⟨4, ![4, 16, 1024, 1024]⟩
abbrev S4x16x1024x64 : Shape := ⟨4, ![4, 16, 1024, 64]⟩
abbrev S_ : Shape := ⟨0, ![]⟩

class Facts : Prop where
  bcast_S_S4x16x1024x1024 : S_.BroadcastsInDim S4x16x1024x1024 (![] : Fin 0 → Fin S4x16x1024x1024.rank)
  reducesTo_S4x16x1024x1024_S_d0_1_2_3 : S4x16x1024x1024.ReducesTo [0, 1, 2, 3] S_
  h_S_ : 0 < S_.numel
  bcast_S_S4x16x1024x64 : S_.BroadcastsInDim S4x16x1024x64 (![] : Fin 0 → Fin S4x16x1024x64.rank)
  reducesTo_S4x16x1024x64_S_d0_1_2_3 : S4x16x1024x64.ReducesTo [0, 1, 2, 3] S_

variable [Facts]

def fn {F : FTy → Type} [FloatOps F] (main_arg0 : FVec F S4x16x1024x1024 .f32) (main_arg1 : FVec F S4x16x1024x64 .f32) : IVec S_ 1 :=
  let main_v0 : FVec F S4x16x1024x1024 .f32 := Host.absf main_arg0
  let main_cst : FVec F S_ .f32 := constant S_ .f32 0x7F800000#32
  let main_v1 : FVec F S4x16x1024x1024 .f32 := broadcastInDim S4x16x1024x1024 ![] bcast_S_S4x16x1024x1024 main_cst
  let main_v2 : IVec S4x16x1024x1024 1 := cmpf .olt main_v0 main_v1
  let main_c : IVec S_ 1 := constantI S_ 1 1#1
  let main_v3 : IVec S_ 1 := (fun x v => Host.reduce IntOp.andi x v reducesTo_S4x16x1024x1024_S_d0_1_2_3 h_S_) main_v2 main_c
  let main_v4 : FVec F S4x16x1024x64 .f32 := Host.absf main_arg1
  let main_cst_0 : FVec F S_ .f32 := constant S_ .f32 0x7F800000#32
  let main_v5 : FVec F S4x16x1024x64 .f32 := broadcastInDim S4x16x1024x64 ![] bcast_S_S4x16x1024x64 main_cst_0
  let main_v6 : IVec S4x16x1024x64 1 := cmpf .olt main_v4 main_v5
  let main_c_1 : IVec S_ 1 := constantI S_ 1 1#1
  let main_v7 : IVec S_ 1 := (fun x v => Host.reduce IntOp.andi x v reducesTo_S4x16x1024x64_S_d0_1_2_3 h_S_) main_v6 main_c_1
  let main_v8 : IVec S_ 1 := andi main_v3 main_v7
  main_v8
-- ==== Kernel.lean ====
abbrev S4x16x1024x1024 : Shape := ⟨4, ![4, 16, 1024, 1024]⟩
abbrev S4x16x1024x64 : Shape := ⟨4, ![4, 16, 1024, 64]⟩
abbrev S64x1024x1024 : Shape := ⟨3, ![64, 1024, 1024]⟩
abbrev S64x1024x64 : Shape := ⟨3, ![64, 1024, 64]⟩
abbrev S2x1024x1024 : Shape := ⟨3, ![2, 1024, 1024]⟩
abbrev S2x1024x64 : Shape := ⟨3, ![2, 1024, 64]⟩

abbrev nBuf : Space → Nat
  | .hbm => 6
  | .vmem => 6
  | .smem => 0
  | _ => 0

abbrev bufTy : (tb : Table) → Fin (tcTables nBuf tb) → BufTy
  | .hbm, ⟨0, _⟩ => ⟨S4x16x1024x1024, .f32⟩
  | .hbm, ⟨1, _⟩ => ⟨S4x16x1024x64, .f32⟩
  | .hbm, ⟨2, _⟩ => ⟨S64x1024x1024, .f32⟩
  | .hbm, ⟨3, _⟩ => ⟨S64x1024x64, .f32⟩
  | .hbm, ⟨4, _⟩ => ⟨S64x1024x64, .f32⟩
  | .hbm, ⟨5, _⟩ => ⟨S4x16x1024x64, .f32⟩
  | .local _ .vmem, ⟨0, _⟩ => ⟨S2x1024x1024, .f32⟩
  | .local _ .vmem, ⟨1, _⟩ => ⟨S2x1024x1024, .f32⟩
  | .local _ .vmem, ⟨2, _⟩ => ⟨S2x1024x64, .f32⟩
  | .local _ .vmem, ⟨3, _⟩ => ⟨S2x1024x64, .f32⟩
  | .local _ .vmem, ⟨4, _⟩ => ⟨S2x1024x64, .f32⟩
  | .local _ .vmem, ⟨5, _⟩ => ⟨S2x1024x64, .f32⟩
  | _, _ => ⟨S4x16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x16x1024x1024_S64x1024x1024 : S4x16x1024x1024.ShapeCasts S64x1024x1024
  shapeCasts_S4x16x1024x64_S64x1024x64 : S4x16x1024x64.ShapeCasts S64x1024x64
  inb_S2x1024x1024_S2x1024x1024_0_0_0 : ∀ a, (![0, 0, 0] : Fin 3 → Nat) a + S2x1024x1024.size a ≤ S2x1024x1024.size a
  h_S2x1024x1024 : 0 < S2x1024x1024.numel
  shapeCasts_S2x1024x1024_S2x1024x1024 : S2x1024x1024.ShapeCasts S2x1024x1024
  bitsLt_bf16_f32 : FTy.bits .bf16 < FTy.bits .f32
  inb_S2x1024x64_S2x1024x64_0_0_0 : ∀ a, (![0, 0, 0] : Fin 3 → Nat) a + S2x1024x64.size a ≤ S2x1024x64.size a
  h_S2x1024x64 : 0 < S2x1024x64.numel
  shapeCasts_S2x1024x64_S2x1024x64 : S2x1024x64.ShapeCasts S2x1024x64
  shapeCasts_S64x1024x64_S4x16x1024x64 : S64x1024x64.ShapeCasts S4x16x1024x64
  dot_S2x1024x1024_S2x1024x64_S2x1024x64_2_1_1_2_0_0_wf : DotDims.WF S2x1024x1024 S2x1024x64 S2x1024x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x1024.size a ≤ S64x1024x1024.size a
  hwx0_0 : ∀ i : grid0.Coords, EltTy.bits .f32 = 32 ∨ (Rect.block (s := S64x1024x1024) S2x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x64.size a ≤ S64x1024x64.size a
  hwx0_1 : ∀ i : grid0.Coords, EltTy.bits .f32 = 32 ∨ (Rect.block (s := S64x1024x64) S2x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1024x64.size a ≤ S64x1024x64.size a
  hwx0_2 : ∀ i : grid0.Coords, EltTy.bits .f32 = 32 ∨ (Rect.block (s := S64x1024x64) S2x1024x64.size (cc0_transform_2 i) (hinb0_2 i)).WholeWords (EltTy.packing .f32)

variable [Facts₀]

def dot_S2x1024x1024_S2x1024x64_S2x1024x64_2_1_1_2_0_0 : DotDims S2x1024x1024 S2x1024x64 S2x1024x64 where
  lhsContracting := [2]
  rhsContracting := [1]
  lhsNonContracting := [1]
  rhsNonContracting := [2]
  lhsBatch := [0]
  rhsBatch := [0]
  wf := dot_S2x1024x1024_S2x1024x64_S2x1024x64_2_1_1_2_0_0_wf

abbrev win0_0 : Pipeline.Window sig grid0 :=
  Pipeline.Window.ofSpec (Memref.whole main_v0) S2x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2x1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x16x1024x1024 : Shape := ⟨4, ![4, 16, 1024, 1024]⟩
abbrev S4x16x1024x64 : Shape := ⟨4, ![4, 16, 1024, 64]⟩

abbrev nBuf : Space → Nat
  | .hbm => 3
  | .vmem => 0
  | .smem => 0
  | _ => 0

abbrev bufTy : (tb : Table) → Fin (tcTables nBuf tb) → BufTy
  | .hbm, ⟨0, _⟩ => ⟨S4x16x1024x1024, .f32⟩
  | .hbm, ⟨1, _⟩ => ⟨S4x16x1024x64, .f32⟩
  | .hbm, ⟨2, _⟩ => ⟨S4x16x1024x64, .f32⟩
  | _, _ => ⟨S4x16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S4x16x1024x1024_S4x16x1024x64_S4x16x1024x64_3_2_2_3_01_01_wf : DotDims.WF S4x16x1024x1024 S4x16x1024x64 S4x16x1024x64 [3] [2] [2] [3] [0, 1] [0, 1]

variable [Facts₀]

def dot_S4x16x1024x1024_S4x16x1024x64_S4x16x1024x64_3_2_2_3_01_01 : DotDims S4x16x1024x1024 S4x16x1024x64 S4x16x1024x64 where
  lhsContracting := [3]
  rhsContracting := [2]
  lhsNonContracting := [2]
  rhsNonContracting := [3]
  lhsBatch := [0, 1]
  rhsBatch := [0, 1]
  wf := dot_S4x16x1024x1024_S4x16x1024x64_S4x16x1024x64_3_2_2_3_01_01_wf

class Facts : Prop extends Facts₀ where

variable [Facts]
-- ==== Proof.BlockProduct.lean ====
/-
  One block of the batched product, entry by entry.

  The kernel body loads a block  a : [2, 1024, 1024]  of the left operand and a block  b : [2, 1024, 64]  of the
  right operand, changes their float format (the identity on the extended reals), and multiplies them with the batch
  axis 0 kept and the left operand's axis 2 contracted against the right operand's axis 1, accumulating into the zero
  block. So the stored block is, at the entry (n, q, h),

      Σ_{k < 1024}  a(n, q, k) · b(n, k, h).

  The contraction index of the dimension numbers is its one coordinate; the left index keeps the batch coordinate and
  the row and takes the contraction coordinate last; the right index keeps the batch coordinate, takes the contraction
  coordinate as its row and keeps the column.
-/
import proofs.«126253_j74062416052398_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.BlockProduct

open Cert.KernelIdeal Cert.KernelIdeal.Gen Idealize.ShloMosaic Idealize.ShloMosaic.ValueIdx

/-- The left index keeps the batch coordinate. -/
theorem lhs_batch (j : S2x1024x64.Idx) (q : dot_S2x1024x1024_S2x1024x64_S2x1024x64_2_1_1_2_0_0.contr.Idx) :
    (dot_S2x1024x1024_S2x1024x64_S2x1024x64_2_1_1_2_0_0.lhsIdx j q 0).val = (j 0).val := by
  unfold DotDims.lhsIdx
  rw [dif_pos (show (0 : Fin S2x1024x1024.rank) ∈ dot_S2x1024x1024_S2x1024x64_S2x1024x64_2_1_1_2_0_0.lhsBatch by decide)]
  rfl

/-- The left index keeps the row. -/
theorem lhs_row (j : S2x1024x64.Idx) (q : dot_S2x1024x1024_S2x1024x64_S2x1024x64_2_1_1_2_0_0.contr.Idx) :
    (dot_S2x1024x1024_S2x1024x64_S2x1024x64_2_1_1_2_0_0.lhsIdx j q 1).val = (j 1).val := by
  unfold DotDims.lhsIdx
  rw [dif_neg (show ¬(1 : Fin S2x1024x1024.rank) ∈ dot_S2x1024x1024_S2x1024x64_S2x1024x64_2_1_1_2_0_0.lhsBatch by decide),
    dif_pos (show (1 : Fin S2x1024x1024.rank) ∈ dot_S2x1024x1024_S2x1024x64_S2x1024x64_2_1_1_2_0_0.lhsNonContracting by decide)]
  rfl

/-- The left index's last coordinate is the contraction coordinate. -/
theorem lhs_contr (j : S2x1024x64.Idx) (q : dot_S2x1024x1024_S2x1024x64_S2x1024x64_2_1_1_2_0_0.contr.Idx) :
    (dot_S2x1024x1024_S2x1024x64_S2x1024x64_2_1_1_2_0_0.lhsIdx j q 2).val = (q ⟨0, by decide⟩).val :=
  dot_S2x1024x1024_S2x1024x64_S2x1024x64_2_1_1_2_0_0.lhsIdx_val_of_single rfl j q

/-- The right index keeps the batch coordinate. -/
theorem rhs_batch (j : S2x1024x64.Idx) (q : dot_S2x1024x1024_S2x1024x64_S2x1024x64_2_1_1_2_0_0.contr.Idx) :
    (dot_S2x1024x1024_S2x1024x64_S2x1024x64_2_1_1_2_0_0.rhsIdx j q 0).val = (j 0).val := by
  unfold DotDims.rhsIdx
  rw [dif_pos (show (0 : Fin S2x1024x64.rank) ∈ dot_S2x1024x1024_S2x1024x64_S2x1024x64_2_1_1_2_0_0.rhsBatch by decide)]
  rfl

/-- The right index's row is the contraction coordinate. -/
theorem rhs_contr (j : S2x1024x64.Idx) (q : dot_S2x1024x1024_S2x1024x64_S2x1024x64_2_1_1_2_0_0.contr.Idx) :
    (dot_S2x1024x1024_S2x1024x64_S2x1024x64_2_1_1_2_0_0.rhsIdx j q 1).val = (q ⟨0, by decide⟩).val :=
  dot_S2x1024x1024_S2x1024x64_S2x1024x64_2_1_1_2_0_0.rhsIdx_val_of_single rfl j q

/-- The right index keeps the column. -/
theorem rhs_col (j : S2x1024x64.Idx) (q : dot_S2x1024x1024_S2x1024x64_S2x1024x64_2_1_1_2_0_0.contr.Idx) :
    (dot_S2x1024x1024_S2x1024x64_S2x1024x64_2_1_1_2_0_0.rhsIdx j q 2).val = (j 2).val := by
  unfold DotDims.rhsIdx
  rw [dif_neg (show ¬(2 : Fin S2x1024x64.rank) ∈ dot_S2x1024x1024_S2x1024x64_S2x1024x64_2_1_1_2_0_0.rhsBatch by decide),
    dif_pos (show (2 : Fin S2x1024x64.rank) ∈ dot_S2x1024x1024_S2x1024x64_S2x1024x64_2_1_1_2_0_0.rhsNonContracting by decide)]
  rfl

/-- THE STORED BLOCK AT AN ENTRY: at batch coordinate `n`, row `q` and column `h` it is the sum over the contracted axis
    of the loaded blocks' products. -/
theorem pay_apply (a : Vec Ideal S2x1024x1024 .f32) (b : Vec Ideal S2x1024x64 .f32) (n : Fin 2) (q : Fin 1024) (h : Fin 64) :
    k0_pay1 (F := Ideal) a b (ix3 n q h) = ∑ k : Fin 1024, a (ix3 n q k) * b (ix3 n k h) := by
  unfold k0_pay1
  simp only [matmul]
  rw [Ideal.matmul_constant_zero_apply,
    ← Equiv.sum_comp (contrEquiv1 dot_S2x1024x1024_S2x1024x64_S2x1024x64_2_1_1_2_0_0 1024 rfl rfl).symm]
  refine Finset.sum_congr rfl fun k _ => ?_
  have hk := contrEquiv1_symm_val dot_S2x1024x1024_S2x1024x64_S2x1024x64_2_1_1_2_0_0 1024 rfl rfl k
  have el : dot_S2x1024x1024_S2x1024x64_S2x1024x64_2_1_1_2_0_0.lhsIdx (ix3 n q h)
      ((contrEquiv1 dot_S2x1024x1024_S2x1024x64_S2x1024x64_2_1_1_2_0_0 1024 rfl rfl).symm k) = ix3 n q k :=
    funext fun d => Fin.ext (by
      match d with
      | ⟨0, _⟩ => exact lhs_batch _ _
      | ⟨1, _⟩ => exact lhs_row _ _
      | ⟨2, _⟩ => exact (lhs_contr _ _).trans hk)
  have er : dot_S2x1024x1024_S2x1024x64_S2x1024x64_2_1_1_2_0_0.rhsIdx (ix3 n q h)
      ((contrEquiv1 dot_S2x1024x1024_S2x1024x64_S2x1024x64_2_1_1_2_0_0 1024 rfl rfl).symm k) = ix3 n k h :=
    funext fun d => Fin.ext (by
      match d with
      | ⟨0, _⟩ => exact rhs_batch _ _
      | ⟨1, _⟩ => exact (rhs_contr _ _).trans hk
      | ⟨2, _⟩ => exact rhs_col _ _)
  rw [el, er, truncf_apply, truncf_apply, shapeCast_self, shapeCast_self]

end Cert.KernelIdeal.BlockProduct

end
-- ==== Proof.Batched.lean ====
/-
  The batched product as one function, and a block of it.

  `bprod A W` is the [64, 1024, 64] array whose entry (n, q, h) is  Σ_{k < 1024} A(n, q, k) · W(n, k, h):  sixty-four
  independent 1024×1024 by 1024×64 matrix products, one per leading coordinate.

  A grid point `p` of the kernel works on the two leading coordinates 2p and 2p + 1: when its loaded blocks are the
  rows 2p, 2p + 1 of `A` and of `W`, the block it stores is the rows 2p, 2p + 1 of `bprod A W`.
-/
import proofs.«126253_j74062416052398_2_alg».proof.Proof.BlockProduct

noncomputable section

open scoped BigOperators

namespace Cert.KernelIdeal.Batched

open Cert.KernelIdeal Cert.KernelIdeal.Gen Idealize.ShloMosaic Idealize.ShloMosaic.ValueIdx

/-- One entry of the batched product, by its three coordinates. -/
def entry (A : S64x1024x1024.Idx → EReal) (W : S64x1024x64.Idx → EReal) (n : Fin 64) (q : Fin 1024) (h : Fin 64) : EReal :=
  ∑ k : Fin 1024, A (ix3 n q k) * W (ix3 n k h)

/-- The batched product: entry (n, q, h) is the sum over k of A(n, q, k) · W(n, k, h). -/
def bprod (A : S64x1024x1024.Idx → EReal) (W : S64x1024x64.Idx → EReal) : S64x1024x64.Idx → EReal :=
  fun i => entry A W (i 0) (i 1) (i 2)

theorem bprod_apply (A : S64x1024x1024.Idx → EReal) (W : S64x1024x64.Idx → EReal) (n : Fin 64) (q : Fin 1024) (h : Fin 64) :
    bprod A W (ix3 n q h) = ∑ k : Fin 1024, A (ix3 n q k) * W (ix3 n k h) := rfl

/-- The leading coordinate 2p + n of row `n` of the block at point `p`. -/
def lead (p : Nat) (hp : p < 32) (n : Fin 2) : Fin 64 := ⟨p * 2 + n.val, by have := n.isLt; omega⟩

/-- A BLOCK OF THE PRODUCT: if the loaded blocks are the rows 2p, 2p + 1 of `A` and `W`, the stored block is the rows
    2p, 2p + 1 of their batched product. -/
theorem block_entry (A : S64x1024x1024.Idx → EReal) (W : S64x1024x64.Idx → EReal)
    (a : Vec Ideal S2x1024x1024 .f32) (b : Vec Ideal S2x1024x64 .f32) (p : Nat) (hp : p < 32)
    (ha : ∀ (n : Fin 2) (q : Fin 1024) (k : Fin 1024), a (ix3 n q k) = A (ix3 (lead p hp n) q k))
    (hb : ∀ (n : Fin 2) (k : Fin 1024) (h : Fin 64), b (ix3 n k h) = W (ix3 (lead p hp n) k h))
    (n : Fin 2) (q : Fin 1024) (h : Fin 64) :
    k0_pay1 (F := Ideal) a b (ix3 n q h) = bprod A W (ix3 (lead p hp n) q h) := by
  rw [BlockProduct.pay_apply, bprod_apply]
  exact Finset.sum_congr rfl fun k _ => by rw [ha, hb]

end Cert.KernelIdeal.Batched

end
-- ==== Proof.Blocks.lean ====
/-
  From the blocks to the whole array.

  The grid has 32 points; at point `t` every window's block is the pair of leading coordinates 2t, 2t + 1 (block index
  `t` on axis 0 with block extent 2, block index 0 on the two other axes, whose blocks are the whole axes). So the block
  the body stores at point `t` is the rows 2t, 2t + 1 of the batched product of the two arrays as the region finds them,
  the 32 blocks tile the output array (row `r` lies in the block of point `r / 2`), and the array after the last
  write-back is the batched product.
-/
import proofs.«126253_j74062416052398_2_alg».proof.Proof.Gen.KernelIdeal.Frame
import proofs.«126253_j74062416052398_2_alg».proof.Proof.Batched

set_option maxRecDepth 16384

noncomputable section

namespace Cert.KernelIdeal.Blocks

open Cert.KernelIdeal Cert.KernelIdeal.Gen Cert.KernelIdeal.Batched
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem zero_offsets : (![0, 0, 0] : Fin 3 → Nat) = fun _ => 0 := funext fun a => by fin_cases a <;> rfl

/-- The printed index maps over the grid: every window's block index at point `t` is (t, 0, 0). -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

theorem point_lt (t : Fin cfg0.N) : t.val < 32 := by
  have h : t.val < grid0.N := t.isLt
  rw [N_0] at h
  exact h

/-- WHAT POINT `t` WRITES BACK is block `t` of the batched product of the arrays as the region finds them. -/
theorem flushed_eq (c : Dev nD) (t : Fin cfg0.N) :
    (dats m 0 c).flushed 2 t
      = ((cfg0.win 2).blk t).view.read (Elt Ideal) (bprod (V m c main_v0) (V m c main_v1)) := by
  show (cfg0.win 2).cut (grid0.coords t) ((dats m 0 c).after 2 t) = _
  rw [after0_2]
  unfold out0_2
  rw [View.canon_unit_zero zero_offsets]
  simp only [View.ld_unit_zero (S := S2x1024x1024) zero_offsets, View.ld_unit_zero (S := S2x1024x64) zero_offsets]
  obtain ⟨e00, e01, e02, e10, e11, e12, e20, e21, e22⟩ := index_facts t
  have hp : t.val < 32 := point_lt t
  funext j
  obtain ⟨n, q, h, rfl⟩ : ∃ (n : Fin 2) (q : Fin 1024) (h : Fin 64), j = ix3 n q h := ⟨j 0, j 1, j 2, eq_ix3 j⟩
  refine (block_entry (V m c main_v0) (V m c main_v1) (iblk m c 0 t) (iblk m c 1 t) t.val hp ?_ ?_ n q h).trans ?_
  · intro n q k
    show V m c main_v0 (((cfg0.win 0).blk t).view.emb (ix3 n q k)) = V m c main_v0 (ix3 (lead t.val hp n) q k)
    refine congrArg (V m c main_v0) (funext fun a => Fin.ext ?_)
    match a with
    | ⟨0, _⟩ => show win0_0.index t (0 : Fin 3) * 2 + 1 * n.val = t.val * 2 + n.val; omega
    | ⟨1, _⟩ => show win0_0.index t (1 : Fin 3) * 1024 + 1 * q.val = q.val; omega
    | ⟨2, _⟩ => show win0_0.index t (2 : Fin 3) * 1024 + 1 * k.val = k.val; omega
  · intro n k h
    show V m c main_v1 (((cfg0.win 1).blk t).view.emb (ix3 n k h)) = V m c main_v1 (ix3 (lead t.val hp n) k h)
    refine congrArg (V m c main_v1) (funext fun a => Fin.ext ?_)
    match a with
    | ⟨0, _⟩ => show win0_1.index t (0 : Fin 3) * 2 + 1 * n.val = t.val * 2 + n.val; omega
    | ⟨1, _⟩ => show win0_1.index t (1 : Fin 3) * 1024 + 1 * k.val = k.val; omega
    | ⟨2, _⟩ => show win0_1.index t (2 : Fin 3) * 64 + 1 * h.val = h.val; omega
  · show bprod (V m c main_v0) (V m c main_v1) (ix3 (lead t.val hp n) q h)
      = bprod (V m c main_v0) (V m c main_v1) (((cfg0.win 2).blk t).view.emb (ix3 n q h))
    refine congrArg (bprod (V m c main_v0) (V m c main_v1)) (funext fun a => Fin.ext ?_)
    match a with
    | ⟨0, _⟩ => show t.val * 2 + n.val = win0_2.index t (0 : Fin 3) * 2 + 1 * n.val; omega
    | ⟨1, _⟩ => show q.val = win0_2.index t (1 : Fin 3) * 1024 + 1 * q.val; omega
    | ⟨2, _⟩ => show h.val = win0_2.index t (2 : Fin 3) * 64 + 1 * h.val; omega

/-- An index of the output array is in point `t`'s block iff each coordinate is in the block's range on its axis. -/
theorem mem_blk (t : Fin cfg0.N) (i : S64x1024x64.Idx) :
    i ∈ ((cfg0.win 2).blk t).view.set ↔ ∀ a : Fin 3, win0_2.index t a * S2x1024x64.size a ≤ (i a).val
      ∧ (i a).val < win0_2.index t a * S2x1024x64.size a + S2x1024x64.size a := by
  show i ∈ ((View.whole main_v2).slice (win0_2.rect t)).set ↔ _
  rw [View.set_slice_whole, Rect.mem_set_unit]
  exact Iff.rfl

/-- THE BLOCKS TILE THE ARRAY: leading coordinate `r` lies in the block of point `r / 2`. -/
theorem cover (i : S64x1024x64.Idx) :
    ∃ t : Fin cfg0.N, (cfg0.win 2).flush t = true ∧ i ∈ ((cfg0.win 2).blk t).view.set := by
  have hi0 : (i 0).val < 64 := (i 0).isLt
  have hi1 : (i 1).val < 1024 := (i 1).isLt
  have hi2 : (i 2).val < 64 := (i 2).isLt
  have hN : (i 0).val / 2 < grid0.N := by rw [N_0]; omega
  obtain ⟨-, -, -, -, -, -, e20, e21, e22⟩ := index_facts ⟨(i 0).val / 2, hN⟩
  have e20' : win0_2.index ⟨(i 0).val / 2, hN⟩ (0 : Fin 3) = (i 0).val / 2 := e20
  refine ⟨⟨(i 0).val / 2, hN⟩, flush0_2 _, ?_⟩
  rw [mem_blk]
  intro a
  match a with
  | ⟨0, _⟩ =>
    show win0_2.index ⟨(i 0).val / 2, hN⟩ (0 : Fin 3) * 2 ≤ (i 0).val
      ∧ (i 0).val < win0_2.index ⟨(i 0).val / 2, hN⟩ (0 : Fin 3) * 2 + 2
    omega
  | ⟨1, _⟩ =>
    show win0_2.index ⟨(i 0).val / 2, hN⟩ (1 : Fin 3) * 1024 ≤ (i 1).val
      ∧ (i 1).val < win0_2.index ⟨(i 0).val / 2, hN⟩ (1 : Fin 3) * 1024 + 1024
    omega
  | ⟨2, _⟩ =>
    show win0_2.index ⟨(i 0).val / 2, hN⟩ (2 : Fin 3) * 64 ≤ (i 2).val
      ∧ (i 2).val < win0_2.index ⟨(i 0).val / 2, hN⟩ (2 : Fin 3) * 64 + 64
    omega

/-- THE ARRAY AFTER THE RUN is the batched product of the two arrays as the region finds them. -/
theorem final (c : Dev nD) : (dats m 0 c).arrAt 2 cfg0.N = bprod (V m c main_v0) (V m c main_v1) :=
  (dats m 0 c).arrAt_eq_of_cover 2 _ (fun t _ => flushed_eq m c t) (fun i => cover i)

end Cert.KernelIdeal.Blocks

end
-- ==== Proof.Whole.lean ====
/-
  The kernel's whole run, read as a value.

  Before the region the program reshapes both arguments, merging the two leading axes: [4, 16, 1024, 1024] to
  [64, 1024, 1024] and [4, 16, 1024, 64] to [64, 1024, 64]. The region leaves the batched product of the two merged
  arrays (each of its 64 leading coordinates one 1024×1024 by 1024×64 product). After the region the program
  reshapes that array back, splitting the leading axis: [64, 1024, 64] to [4, 16, 1024, 64]. So the result is

      split (bprod (merge s) (merge v)),

  a function `result` of the two argument arrays as launched, and both arguments end unchanged.
-/
import proofs.«126253_j74062416052398_2_alg».proof.Proof.Blocks
import Idealize.ShloMosaic.Lib.StableHlo.Run

set_option maxRecDepth 16384

noncomputable section

namespace Cert.KernelIdeal.Whole

open Cert.KernelIdeal Cert.KernelIdeal.Gen Cert.KernelIdeal.Batched
open Idealize.ShloMosaic Idealize.ShloMosaic.TcCoe Idealize.SL.Sem Idealize.ShloMosaic.StableHlo
open Idealize.ShloMosaic.Pipeline (Dat)

/-- The program's result as a function of its two arguments: merge the leading axes of both, take the batched product,
    split the leading axis of the product. -/
def result (s : S4x16x1024x1024.Idx → EReal) (v : S4x16x1024x64.Idx → EReal) : S4x16x1024x64.Idx → EReal :=
  shapeCast S4x16x1024x64
    (bprod (shapeCast S64x1024x1024 s shapeCasts_S4x16x1024x1024_S64x1024x1024)
      (shapeCast S64x1024x64 v shapeCasts_S4x16x1024x64_S64x1024x64))
    shapeCasts_S64x1024x64_S4x16x1024x64

variable (m : (ℓ : Loc nD τ sig) → Buf (Elt Ideal) ℓ) (ρ : Dev nD → PrngReg)

/-- The region finds the left operand as the merged first argument. -/
theorem V_left (c : Dev nD) : (V m c main_v0 : S64x1024x1024.Idx → EReal)
    = shapeCast S64x1024x1024 (m ((c : Thread nD τ).loc main_arg0)) shapeCasts_S4x16x1024x1024_S64x1024x1024 := by
  show StableHlo.after hostOps0 (fun b => m (c, b)) (Proc.devRef .tc main_v0) = _
  after_results
  rfl

/-- The region finds the right operand as the merged second argument. -/
theorem V_right (c : Dev nD) : (V m c main_v1 : S64x1024x64.Idx → EReal)
    = shapeCast S64x1024x64 (m ((c : Thread nD τ).loc main_arg1)) shapeCasts_S4x16x1024x64_S64x1024x64 := by
  show StableHlo.after hostOps0 (fun b => m (c, b)) (Proc.devRef .tc main_v1) = _
  after_results
  rfl

/-- What the region leaves in its output array, among the buffers the later lines read. -/
theorem region_array (c : Dev nD) :
    Pipeline.withArrays (cfgs 0).spec c (V0 m c) (fun w => (dats m 0 c).arrAt w (cfgs 0).N) (Proc.devRef .tc main_v2)
      = bprod (V m c main_v0) (V m c main_v1) :=
  (Pipeline.withArrays_arr spec0 launch0.win.arr_inj c _ _ 2).trans (Blocks.final m c)

/-- The line after the region splits the leading axis of the region's array: the program's result. -/
theorem tail_eq (c : Dev nD) :
    (Pipeline.afterTail₀ cfgs (dats m) 0 (V0 m) [hostOps1] c main_v3 : S4x16x1024x64.Idx → EReal)
      = result (m ((c : Thread nD τ).loc main_arg0)) (m ((c : Thread nD τ).loc main_arg1)) := by
  unfold Pipeline.afterTail₀
  show StableHlo.after hostOps1 _ (Proc.devRef .tc main_v3) = _
  after_results
  show shapeCast S4x16x1024x64
      (Pipeline.withArrays (cfgs 0).spec c (V0 m c) (fun w => (dats m 0 c).arrAt w (cfgs 0).N) (Proc.devRef .tc main_v2))
      shapeCasts_S64x1024x64_S4x16x1024x64 = _
  rw [region_array, V_left, V_right]
  rfl

/-- THE RUN: every weakly fair execution of the program terminates with the result buffer at `result` of the arguments
    as launched, and the arguments unchanged. -/
theorem run : θ_run defs (onTc (τ := τ) (main (F := Ideal))) ⟨m, fun _ => 0, ρ⟩ fun r => ∀ c : Dev nD,
      r.2.mem ((c.tc : Thread nD τ).loc main_v3)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Whole

end
-- ==== Proof.LibMergeAxes.lean ====
/-
  Merging and splitting the two leading axes of a rank-4 array, read at an index.

  A row-major reshape of a [B, M, R, K] array to [N, R, K] with N = B·M keeps every element's row-major position, so it
  sends the entry (b, m, q, k) to the entry (b·M + m, q, k): the two leading coordinates merge into one. Read in the
  other direction, the reshape of an [N, R, K] array to [B, M, R, K] has at (b, m, q, k) the operand's entry
  (b·M + m, q, k). Generic in the four extents and in the element type.
-/
import Idealize.ShloMosaic.Lib.Pipeline.Value
import Idealize.ShloMosaic.Lib.ValueIdx

noncomputable section

namespace Cert.LibMergeAxes

open Idealize.ShloMosaic Idealize.ShloMosaic.ValueIdx

variable {B M N R K : Nat} {α : Type}

/-- The merged coordinate b·M + m of the two leading coordinates, below N = B·M. -/
def merged (hN : B * M = N) (b : Fin B) (m : Fin M) : Fin N :=
  ⟨b.val * M + m.val, by
    have hb := b.isLt
    have hm := m.isLt
    calc b.val * M + m.val < b.val * M + M := by omega
      _ = (b.val + 1) * M := by rw [Nat.add_mul, Nat.one_mul]
      _ ≤ B * M := Nat.mul_le_mul_right M hb
      _ = N := hN⟩

theorem merged_val (hN : B * M = N) (b : Fin B) (m : Fin M) : (merged hN b m).val = b.val * M + m.val := rfl

/-- MERGING: the [N, R, K] reshape of a [B, M, R, K] array has at (b·M + m, q, k) the array's entry (b, m, q, k). -/
theorem merge_apply (hN : B * M = N) (x : (⟨4, ![B, M, R, K]⟩ : Shape).Idx → α)
    (h : (⟨4, ![B, M, R, K]⟩ : Shape).ShapeCasts ⟨3, ![N, R, K]⟩) (b : Fin B) (m : Fin M) (q : Fin R) (k : Fin K) :
    shapeCast ⟨3, ![N, R, K]⟩ x h (ix3 (merged hN b m) q k) = x (ix4 b m q k) := by
  refine shapeCast_apply x h _ _ ?_
  rw [Shape.rowMajor_val_four, Shape.rowMajor_val_three]
  rfl

/-- SPLITTING: the [B, M, R, K] reshape of an [N, R, K] array has at (b, m, q, k) the array's entry (b·M + m, q, k). -/
theorem split_apply (hN : B * M = N) (y : (⟨3, ![N, R, K]⟩ : Shape).Idx → α)
    (h : (⟨3, ![N, R, K]⟩ : Shape).ShapeCasts ⟨4, ![B, M, R, K]⟩) (b : Fin B) (m : Fin M) (q : Fin R) (k : Fin K) :
    shapeCast ⟨4, ![B, M, R, K]⟩ y h (ix4 b m q k) = y (ix3 (merged hN b m) q k) := by
  refine shapeCast_apply y h _ _ ?_
  rw [Shape.rowMajor_val_three, Shape.rowMajor_val_four]
  rfl

end Cert.LibMergeAxes

end
-- ==== Proof.Bridge.lean ====
/-
  The two programs compute one function.

  At the entry (b, m, q, h) the kernel's result — the split of the batched product of the merged arguments — is the
  batched product's entry (16·b + m, q, h), the sum over k of the merged arguments' entries (16·b + m, q, k) and
  (16·b + m, k, h), which are the arguments' own entries (b, m, q, k) and (b, m, k, h). The reference's
  `dot_general` with batch axes 0, 1 and the left operand's axis 3 contracted against the right operand's axis 2 is,
  at the same entry, the sum over k of s(b, m, q, k) · v(b, m, k, h). The two sums are the same sum, term by term; no
  law of arithmetic is needed beyond 0 + x = x for the kernel's zero accumulator, which holds at every extended real.
-/
import proofs.«126253_j74062416052398_2_alg».proof.Proof.Whole
import proofs.«126253_j74062416052398_2_alg».proof.Proof.LibMergeAxes
import proofs.«126253_j74062416052398_2_alg».proof.Proof.Gen.ReferenceIdeal.Read

noncomputable section

open scoped BigOperators

namespace Cert.Bridge

open Idealize.ShloMosaic Idealize.ShloMosaic.ValueIdx Cert.LibMergeAxes Cert.KernelIdeal.Batched

/-- The left operand's index the reference reads at output entry (b, m, q, h) and contraction coordinate k. -/
theorem left_index (b : Fin 4) (mm : Fin 16) (q : Fin 1024) (h : Fin 64) (k : Fin 1024) :
    Cert.ReferenceIdeal.Read.lidx_main_v0 (ix4 b mm q h) k = ix4 b mm q k :=
  funext fun a => Fin.ext (by
    match a with
    | ⟨0, _⟩ => rfl
    | ⟨1, _⟩ => rfl
    | ⟨2, _⟩ => rfl
    | ⟨3, _⟩ => rfl)

/-- The right operand's index the reference reads there. -/
theorem right_index (b : Fin 4) (mm : Fin 16) (q : Fin 1024) (h : Fin 64) (k : Fin 1024) :
    Cert.ReferenceIdeal.Read.ridx_main_v0 (ix4 b mm q h) k = ix4 b mm k h :=
  funext fun a => Fin.ext (by
    match a with
    | ⟨0, _⟩ => rfl
    | ⟨1, _⟩ => rfl
    | ⟨2, _⟩ => rfl
    | ⟨3, _⟩ => rfl)

/-- THE KERNEL'S RESULT IS THE REFERENCE'S: entry by entry the same sum of products. -/
theorem result_eq (s : Cert.KernelIdeal.S4x16x1024x1024.Idx → EReal) (v : Cert.KernelIdeal.S4x16x1024x64.Idx → EReal) :
    Cert.KernelIdeal.Whole.result s v = Cert.ReferenceIdeal.Read.val_main_v0 (F := Ideal) s v := by
  funext i
  obtain ⟨b, mm, q, h, rfl⟩ : ∃ (b : Fin 4) (mm : Fin 16) (q : Fin 1024) (h : Fin 64), i = ix4 b mm q h :=
    ⟨i 0, i 1, i 2, i 3, eq_ix4 i⟩
  rw [Cert.ReferenceIdeal.Read.val_main_v0_apply]
  unfold Cert.KernelIdeal.Whole.result
  rw [split_apply (B := 4) (M := 16) (N := 64) rfl, bprod_apply]
  refine Finset.sum_congr rfl fun k _ => ?_
  rw [merge_apply (B := 4) (M := 16) (N := 64) rfl, merge_apply (B := 4) (M := 16) (N := 64) rfl, left_index, right_index]

end Cert.Bridge

end
-- ==== Proof.lean ====
/-
  The batched matrix product  out[b, m, q, h] = Σ_k s[b, m, q, k] · v[b, m, k, h]  over s : [4, 16, 1024, 1024] and
  v : [4, 16, 1024, 64], computed two ways.

  The kernel merges the two leading axes of both arguments (4·16 = 64 independent products), runs a grid of 32 points,
  each loading the rows 2t, 2t + 1 of both merged arrays, changing their float format (the identity on the extended
  reals) and storing their 1024×1024 by 1024×64 products accumulated from zero, and splits the leading axis of the
  result again. The reference is one `dot_general` with batch axes 0, 1, contracting the left operand's axis 3 with
  the right operand's axis 2.

  On the extended reals both are, at the entry (b, m, q, h), the SAME sum over k of s(b, m, q, k) · v(b, m, k, h): the
  kernel's blocks tile the merged output (Blocks), each block entry is that sum (BlockProduct, Batched), the merge and
  the split only rename the leading coordinates, 16·b + m for (b, m) (LibMergeAxes, Whole), and the reference's product
  read at an entry is the sum with the same terms (Bridge). Nothing is used of the inputs' finiteness: the only law is
  0 + x = x for the zero accumulator. The idealization rewrote no operation of the kernel, so `preserves` states nothing.
-/
import proofs.«126253_j74062416052398_2_alg».proof.Defs
import proofs.«126253_j74062416052398_2_alg».proof.Proof.Gen.Kernel
import proofs.«126253_j74062416052398_2_alg».proof.Proof.Gen.Kernel.Skeleton
import proofs.«126253_j74062416052398_2_alg».proof.Proof.Gen.Kernel.Launch
import proofs.«126253_j74062416052398_2_alg».proof.Proof.Gen.Kernel.Points
import proofs.«126253_j74062416052398_2_alg».proof.Proof.Gen.Kernel.Frame
import proofs.«126253_j74062416052398_2_alg».proof.Proof.Gen.KernelIdeal
import proofs.«126253_j74062416052398_2_alg».proof.Proof.Gen.KernelIdeal.Skeleton
import proofs.«126253_j74062416052398_2_alg».proof.Proof.Gen.KernelIdeal.Launch
import proofs.«126253_j74062416052398_2_alg».proof.Proof.Gen.KernelIdeal.Points
import proofs.«126253_j74062416052398_2_alg».proof.Proof.Gen.KernelIdeal.Frame
import proofs.«126253_j74062416052398_2_alg».proof.Proof.Gen.ReferenceIdeal
import proofs.«126253_j74062416052398_2_alg».proof.Proof.Gen.ReferenceIdeal.Run
import proofs.«126253_j74062416052398_2_alg».proof.Proof.Gen.ReferenceIdeal.Read
import proofs.«126253_j74062416052398_2_alg».proof.Proof.Gen.Pre_finite_inputs
import proofs.«126253_j74062416052398_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments unchanged: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- On the extended reals the kernel ends with the split of the batched product of its merged arguments, the reference
    with its `dot_general` of arguments that agree with the kernel's: one function of the arguments (`Bridge.result_eq`). -/
theorem algebraic : Cert.algebraic_KernelIdeal_ReferenceIdeal := by
  intro m ρ m' ρ' _ hagree
  refine ⟨fun c => Cert.KernelIdeal.Whole.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v0_eq _ _).trans (Cert.Bridge.result_eq _ _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
